-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v33)) (v1 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_v34) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192 : Shape := ⟨1, ![8192]⟩
abbrev S500000x256 : Shape := ⟨2, ![500000, 256]⟩
abbrev S500000 : Shape := ⟨1, ![500000]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192 : S_.BroadcastsInDim S8192 (![] : Fin 0 → Fin S8192.rank)
  reducesTo_S8192_S_d0 : S8192.ReducesTo [0] S_
  bcast_S_S500000x256 : S_.BroadcastsInDim S500000x256 (![] : Fin 0 → Fin S500000x256.rank)
  reducesTo_S500000x256_S_d0_1 : S500000x256.ReducesTo [0, 1] S_
  bcast_S_S500000 : S_.BroadcastsInDim S500000 (![] : Fin 0 → Fin S500000.rank)
  reducesTo_S500000_S_d0 : S500000.ReducesTo [0] S_

variable [Facts]

def fn_part1 {F : FTy → Type} [FloatOps F] (main_arg6 : FVec F S500000 .f32) (main_v13 : IVec S_ 1) (main_v16 : IVec S500000x256 1) : IVec S_ 1 :=
  let main_c_5 : IVec S_ 1 := constantI S_ 1 1#1
  let main_v17 : IVec S_ 1 := (fun x v => Host.reduce IntOp.andi x v reducesTo_S500000x256_S_d0_1 h_S_) main_v16 main_c_5
  let main_v18 : IVec S_ 1 := andi main_v13 main_v17
  let main_v19 : FVec F S500000 .f32 := Host.absf main_arg6
  let main_cst_6 : FVec F S_ .f32 := constant S_ .f32 0x7F800000#32
  let main_v20 : FVec F S500000 .f32 := broadcastInDim S500000 ![] bcast_S_S500000 main_cst_6
  let main_v21 : IVec S500000 1 := cmpf .olt main_v19 main_v20
  let main_c_7 : IVec S_ 1 := constantI S_ 1 1#1
  let main_v22 : IVec S_ 1 := (fun x v => Host.reduce IntOp.andi x v reducesTo_S500000_S_d0 h_S_) main_v21 main_c_7
  let main_v23 : IVec S_ 1 := andi main_v18 main_v22
  main_v23

def fn {F : FTy → Type} [FloatOps F] (main_arg0 : FVec F S8192x256 .f32) (main_arg1 : IVec S8192 32) (main_arg2 : IVec S8192 32) (main_arg3 : FVec F S8192 .f32) (main_arg4 : FVec F S8192 .f32) (main_arg5 : FVec F S500000x256 .f32) (main_arg6 : FVec F S500000 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192 .f32 := Host.absf main_arg3
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  let main_v9 : FVec F S8192 .f32 := Host.absf main_arg4
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S500000x256 .f32 := Host.absf main_arg5
  let main_cst_4 : FVec F S_ .f32 := constant S_ .f32 0x7F800000#32
  let main_v15 : FVec F S500000x256 .f32 := broadcastInDim S500000x256 ![] bcast_S_S500000x256 main_cst_4
  let main_v16 : IVec S500000x256 1 := cmpf .olt main_v14 main_v15
  fn_part1 (F := F) main_arg6 main_v13 main_v16
-- ==== Kernel.lean ====
abbrev S8192x256 : Shape := ⟨2, ![8192, 256]⟩
abbrev S8192 : Shape := ⟨1, ![8192]⟩
abbrev S500000x256 : Shape := ⟨2, ![500000, 256]⟩
abbrev S500000 : Shape := ⟨1, ![500000]⟩
abbrev S_ : Shape := ⟨0, ![]⟩
abbrev S8192x1 : Shape := ⟨2, ![8192, 1]⟩
abbrev S1x8192 : Shape := ⟨2, ![1, 8192]⟩
abbrev S8192x8193 : Shape := ⟨2, ![8192, 8193]⟩
abbrev S128x256 : Shape := ⟨2, ![128, 256]⟩
abbrev S128x1 : Shape := ⟨2, ![128, 1]⟩
abbrev S128x8193 : Shape := ⟨2, ![128, 8193]⟩
abbrev S128 : Shape := ⟨1, ![128]⟩
abbrev S128x8192 : Shape := ⟨2, ![128, 8192]⟩

abbrev nBuf : Space → Nat
  | .hbm => 51
  | .vmem => 13
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192, .i32⟩
  | .hbm, ⟨3, _⟩ => ⟨S8192, .f32⟩
  | .hbm, ⟨4, _⟩ => ⟨S8192, .f32⟩
  | .hbm, ⟨5, _⟩ => ⟨S500000x256, .f32⟩
  | .hbm, ⟨6, _⟩ => ⟨S500000, .f32⟩
  | .hbm, ⟨7, _⟩ => ⟨S_, .i32⟩
  | .hbm, ⟨8, _⟩ => ⟨S8192, .i32⟩
  | .hbm, ⟨9, _⟩ => ⟨S8192, .i1⟩
  | .hbm, ⟨10, _⟩ => ⟨S_, .i32⟩
  | .hbm, ⟨11, _⟩ => ⟨S8192, .i32⟩
  | .hbm, ⟨12, _⟩ => ⟨S8192, .i32⟩
  | .hbm, ⟨13, _⟩ => ⟨S8192, .i32⟩
  | .hbm, ⟨14, _⟩ => ⟨S8192x1, .i32⟩
  | .hbm, ⟨15, _⟩ => ⟨S8192x256, .f32⟩
  | .hbm, ⟨16, _⟩ => ⟨S_, .i32⟩
  | .hbm, ⟨17, _⟩ => ⟨S8192, .i32⟩
  | .hbm, ⟨18, _⟩ => ⟨S8192, .i1⟩
  | .hbm, ⟨19, _⟩ => ⟨S_, .i32⟩
  | .hbm, ⟨20, _⟩ => ⟨S8192, .i32⟩
  | .hbm, ⟨21, _⟩ => ⟨S8192, .i32⟩
  | .hbm, ⟨22, _⟩ => ⟨S8192, .i32⟩
  | .hbm, ⟨23, _⟩ => ⟨S8192x1, .i32⟩
  | .hbm, ⟨24, _⟩ => ⟨S8192, .f32⟩
  | .hbm, ⟨25, _⟩ => ⟨S8192x1, .f32⟩
  | .hbm, ⟨26, _⟩ => ⟨S_, .i32⟩
  | .hbm, ⟨27, _⟩ => ⟨S8192, .i32⟩
  | .hbm, ⟨28, _⟩ => ⟨S8192, .i1⟩
  | .hbm, ⟨29, _⟩ => ⟨S_, .i32⟩
  | .hbm, ⟨30, _⟩ => ⟨S8192, .i32⟩
  | .hbm, ⟨31, _⟩ => ⟨S8192, .i32⟩
  | .hbm, ⟨32, _⟩ => ⟨S8192, .i32⟩
  | .hbm, ⟨33, _⟩ => ⟨S8192x1, .i32⟩
  | .hbm, ⟨34, _⟩ => ⟨S8192x256, .f32⟩
  | .hbm, ⟨35, _⟩ => ⟨S8192x256, .bf16⟩
  | .hbm, ⟨36, _⟩ => ⟨S_, .i32⟩
  | .hbm, ⟨37, _⟩ => ⟨S8192, .i32⟩
  | .hbm, ⟨38, _⟩ => ⟨S8192, .i1⟩
  | .hbm, ⟨39, _⟩ => ⟨S_, .i32⟩
  | .hbm, ⟨40, _⟩ => ⟨S8192, .i32⟩
  | .hbm, ⟨41, _⟩ => ⟨S8192, .i32⟩
  | .hbm, ⟨42, _⟩ => ⟨S8192, .i32⟩
  | .hbm, ⟨43, _⟩ => ⟨S8192x1, .i32⟩
  | .hbm, ⟨44, _⟩ => ⟨S8192, .f32⟩
  | .hbm, ⟨45, _⟩ => ⟨S1x8192, .f32⟩
  | .hbm, ⟨46, _⟩ => ⟨S8192x1, .f32⟩
  | .hbm, ⟨47, _⟩ => ⟨S1x8192, .f32⟩
  | .hbm, ⟨48, _⟩ => ⟨S8192x8193, .f32⟩
  | .hbm, ⟨49, _⟩ => ⟨S_, .i32⟩
  | .hbm, ⟨50, _⟩ => ⟨S8192, .i32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x1, .f32⟩
  | .local _ .vmem, ⟨5, _⟩ => ⟨S128x1, .f32⟩
  | .local _ .vmem, ⟨6, _⟩ => ⟨S128x1, .f32⟩
  | .local _ .vmem, ⟨7, _⟩ => ⟨S128x1, .f32⟩
  | .local _ .vmem, ⟨8, _⟩ => ⟨S8192x256, .bf16⟩
  | .local _ .vmem, ⟨9, _⟩ => ⟨S1x8192, .f32⟩
  | .local _ .vmem, ⟨10, _⟩ => ⟨S1x8192, .f32⟩
  | .local _ .vmem, ⟨11, _⟩ => ⟨S128x8193, .f32⟩
  | .local _ .vmem, ⟨12, _⟩ => ⟨S128x8193, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_3 : Ref sig .tc := ⟨.hbm, 26, rfl⟩
abbrev main_v15 : Ref sig .tc := ⟨.hbm, 27, rfl⟩
abbrev main_v16 : Ref sig .tc := ⟨.hbm, 28, rfl⟩
abbrev main_c_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_5 : Ref sig .tc := ⟨.hbm, 36, rfl⟩
abbrev main_v23 : Ref sig .tc := ⟨.hbm, 37, rfl⟩
abbrev main_v24 : Ref sig .tc := ⟨.hbm, 38, rfl⟩
abbrev main_c_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8192x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x8193 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  shapeCasts_S8192_S8192x1 : S8192.ShapeCasts S8192x1
  bitsLt_bf16_f32 : FTy.bits .bf16 < FTy.bits .f32
  shapeCasts_S8192_S1x8192 : S8192.ShapeCasts S1x8192
  inb_S128x256_S128x256_0_0 : ∀ a, (![0, 0] : Fin 2 → Nat) a + S128x256.size a ≤ S128x256.size a
  h_S128x256 : 0 < S128x256.numel
  shapeCasts_S128x256_S128x256 : S128x256.ShapeCasts S128x256
  reduces_S128x256_S128 : S128x256.Reduces [1] S128
  shapeCasts_S128_S128x1 : S128.ShapeCasts S128x1
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S1x8192_S128x8192 : S1x8192.Broadcasts S128x8192
  inb_S128x8193_S128x1_0_0 : ∀ a, (![0, 0] : Fin 2 → Nat) a + S128x1.size a ≤ S128x8193.size a
  inb_S128x8193_S128x8192_0_1 : ∀ a, (![0, 1] : Fin 2 → Nat) a + S128x8192.size a ≤ S128x8193.size a
  h_S128x8192 : 0 < S128x8192.numel
  gather_S500000x256_S8192x1_S8192x256_1_0_n_n_0_1_1256_wf : GatherDims.WF S500000x256 S8192x1 S8192x256 [1] [0] [] [0] [] 1 ![1, 256]
  gather_S500000_S8192x1_S8192_n_0_n_n_0_1_1_wf : GatherDims.WF S500000 S8192x1 S8192 [] [0] [] [0] [] 1 ![1]
  dot_S128x256_S8192x256_S128x8192_1_1_0_0_n_n_wf : DotDims.WF S128x256 S8192x256 S128x8192 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x256.size a ≤ S8192x256.size a
  hwx0_0 : ∀ i : grid0.Coords, EltTy.bits .f32 = 32 ∨ (Rect.block (s := S8192x256) S128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S8192x256.size a
  hwx0_1 : ∀ i : grid0.Coords, EltTy.bits .f32 = 32 ∨ (Rect.block (s := S8192x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S8192x1.size a
  hwx0_2 : ∀ i : grid0.Coords, EltTy.bits .f32 = 32 ∨ (Rect.block (s := S8192x1) S128x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S8192x1.size a
  hwx0_3 : ∀ i : grid0.Coords, EltTy.bits .f32 = 32 ∨ (Rect.block (s := S8192x1) S128x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8192x256.size a ≤ S8192x256.size a
  hwx0_4 : ∀ i : grid0.Coords, EltTy.bits .bf16 = 32 ∨ (Rect.block (s := S8192x256) S8192x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x8192.size a ≤ S1x8192.size a
  hwx0_5 : ∀ i : grid0.Coords, EltTy.bits .f32 = 32 ∨ (Rect.block (s := S1x8192) S1x8192.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x8192.size a ≤ S1x8192.size a
  hwx0_6 : ∀ i : grid0.Coords, EltTy.bits .f32 = 32 ∨ (Rect.block (s := S1x8192) S1x8192.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x8193.size a ≤ S8192x8193.size a
  hwx0_7 : ∀ i : grid0.Coords, EltTy.bits .f32 = 32 ∨ (Rect.block (s := S8192x8193) S128x8193.size (cc0_transform_7 i) (hinb0_7 i)).WholeWords (EltTy.packing .f32)

variable [Facts₀]

def gather_S500000x256_S8192x1_S8192x256_1_0_n_n_0_1_1256 : GatherDims S500000x256 S8192x1 S8192x256 where
  offsetDims := [1]
  collapsedSliceDims := [0]
  operandBatchingDims := []
  startIndicesBatchingDims := []
  startIndexMap := [0]
  indexVectorDim := 1
  sliceSizes := ![1, 256]
  wf := gather_S500000x256_S8192x1_S8192x256_1_0_n_n_0_1_1256_wf
def gather_S500000_S8192x1_S8192_n_0_n_n_0_1_1 : GatherDims S500000 S8192x1 S8192 where
  offsetDims := []
  collapsedSliceDims := [0]
  operandBatchingDims := []
  startIndicesBatchingDims := []
  startIndexMap := [0]
  indexVectorDim := 1
  sliceSizes := ![1]
  wf := gather_S500000_S8192x1_S8192_n_0_n_n_0_1_1_wf
def dot_S128x256_S8192x256_S128x8192_1_1_0_0_n_n : DotDims S128x256 S8192x256 S128x8192 where
  lhsContracting := [1]
  rhsContracting := [1]
  lhsNonContracting := [0]
  rhsNonContracting := [0]
  lhsBatch := []
  rhsBatch := []
  wf := dot_S128x256_S8192x256_S128x8192_1_1_0_0_n_n_wf

abbrev win0_0 : Pipeline.Window sig grid0 :=
  Pipeline.Window.ofSpec (Memref.whole main_arg0) S128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v31) S128x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v22) S8192x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30) S1x8192.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v32) S1x8192.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v33) S128x8193.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x256 : Shape := ⟨2, ![8192, 256]⟩
abbrev S8192 : Shape := ⟨1, ![8192]⟩
abbrev S500000x256 : Shape := ⟨2, ![500000, 256]⟩
abbrev S500000 : Shape := ⟨1, ![500000]⟩
abbrev S_ : Shape := ⟨0, ![]⟩
abbrev S8192x1 : Shape := ⟨2, ![8192, 1]⟩
abbrev S8192x8192 : Shape := ⟨2, ![8192, 8192]⟩
abbrev S1x8192 : Shape := ⟨2, ![1, 8192]⟩
abbrev S8192x8193 : Shape := ⟨2, ![8192, 8193]⟩

abbrev nBuf : Space → Nat
  | .hbm => 59
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192, .i32⟩
  | .hbm, ⟨3, _⟩ => ⟨S8192, .f32⟩
  | .hbm, ⟨4, _⟩ => ⟨S8192, .f32⟩
  | .hbm, ⟨5, _⟩ => ⟨S500000x256, .f32⟩
  | .hbm, ⟨6, _⟩ => ⟨S500000, .f32⟩
  | .hbm, ⟨7, _⟩ => ⟨S_, .i32⟩
  | .hbm, ⟨8, _⟩ => ⟨S8192, .i32⟩
  | .hbm, ⟨9, _⟩ => ⟨S8192, .i1⟩
  | .hbm, ⟨10, _⟩ => ⟨S_, .i32⟩
  | .hbm, ⟨11, _⟩ => ⟨S8192, .i32⟩
  | .hbm, ⟨12, _⟩ => ⟨S8192, .i32⟩
  | .hbm, ⟨13, _⟩ => ⟨S8192, .i32⟩
  | .hbm, ⟨14, _⟩ => ⟨S8192x1, .i32⟩
  | .hbm, ⟨15, _⟩ => ⟨S8192x256, .f32⟩
  | .hbm, ⟨16, _⟩ => ⟨S_, .i32⟩
  | .hbm, ⟨17, _⟩ => ⟨S8192, .i32⟩
  | .hbm, ⟨18, _⟩ => ⟨S8192, .i1⟩
  | .hbm, ⟨19, _⟩ => ⟨S_, .i32⟩
  | .hbm, ⟨20, _⟩ => ⟨S8192, .i32⟩
  | .hbm, ⟨21, _⟩ => ⟨S8192, .i32⟩
  | .hbm, ⟨22, _⟩ => ⟨S8192, .i32⟩
  | .hbm, ⟨23, _⟩ => ⟨S8192x1, .i32⟩
  | .hbm, ⟨24, _⟩ => ⟨S8192, .f32⟩
  | .hbm, ⟨25, _⟩ => ⟨S_, .i32⟩
  | .hbm, ⟨26, _⟩ => ⟨S8192, .i32⟩
  | .hbm, ⟨27, _⟩ => ⟨S8192, .i1⟩
  | .hbm, ⟨28, _⟩ => ⟨S_, .i32⟩
  | .hbm, ⟨29, _⟩ => ⟨S8192, .i32⟩
  | .hbm, ⟨30, _⟩ => ⟨S8192, .i32⟩
  | .hbm, ⟨31, _⟩ => ⟨S8192, .i32⟩
  | .hbm, ⟨32, _⟩ => ⟨S8192x1, .i32⟩
  | .hbm, ⟨33, _⟩ => ⟨S8192x256, .f32⟩
  | .hbm, ⟨34, _⟩ => ⟨S_, .i32⟩
  | .hbm, ⟨35, _⟩ => ⟨S8192, .i32⟩
  | .hbm, ⟨36, _⟩ => ⟨S8192, .i1⟩
  | .hbm, ⟨37, _⟩ => ⟨S_, .i32⟩
  | .hbm, ⟨38, _⟩ => ⟨S8192, .i32⟩
  | .hbm, ⟨39, _⟩ => ⟨S8192, .i32⟩
  | .hbm, ⟨40, _⟩ => ⟨S8192, .i32⟩
  | .hbm, ⟨41, _⟩ => ⟨S8192x1, .i32⟩
  | .hbm, ⟨42, _⟩ => ⟨S8192, .f32⟩
  | .hbm, ⟨43, _⟩ => ⟨S8192x256, .f32⟩
  | .hbm, ⟨44, _⟩ => ⟨S_, .f32⟩
  | .hbm, ⟨45, _⟩ => ⟨S8192, .f32⟩
  | .hbm, ⟨46, _⟩ => ⟨S8192, .f32⟩
  | .hbm, ⟨47, _⟩ => ⟨S8192, .f32⟩
  | .hbm, ⟨48, _⟩ => ⟨S8192x8192, .f32⟩
  | .hbm, ⟨49, _⟩ => ⟨S1x8192, .f32⟩
  | .hbm, ⟨50, _⟩ => ⟨S8192x8192, .f32⟩
  | .hbm, ⟨51, _⟩ => ⟨S8192x8192, .f32⟩
  | .hbm, ⟨52, _⟩ => ⟨S1x8192, .f32⟩
  | .hbm, ⟨53, _⟩ => ⟨S8192x8192, .f32⟩
  | .hbm, ⟨54, _⟩ => ⟨S8192x8192, .f32⟩
  | .hbm, ⟨55, _⟩ => ⟨S8192x1, .f32⟩
  | .hbm, ⟨56, _⟩ => ⟨S8192x8193, .f32⟩
  | .hbm, ⟨57, _⟩ => ⟨S_, .i32⟩
  | .hbm, ⟨58, _⟩ => ⟨S8192, .i32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_3 : Ref sig .tc := ⟨.hbm, 25, rfl⟩
abbrev main_v14 : Ref sig .tc := ⟨.hbm, 26, rfl⟩
abbrev main_v15 : Ref sig .tc := ⟨.hbm, 27, rfl⟩
abbrev main_c_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_5 : Ref sig .tc := ⟨.hbm, 34, rfl⟩
abbrev main_v21 : Ref sig .tc := ⟨.hbm, 35, rfl⟩
abbrev main_v22 : Ref sig .tc := ⟨.hbm, 36, rfl⟩
abbrev main_c_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_c_7 : Ref sig .tc := ⟨.hbm, 57, rfl⟩
abbrev main_v41 : Ref sig .tc := ⟨.hbm, 58, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  reducesTo_S8192x256_S8192_d1 : S8192x256.ReducesTo [1] S8192
  h_S_ : 0 < S_.numel
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  concatenates_S8192x1_S8192x8192_S8192x8193_d1 : Shape.Concatenates [S8192x1, S8192x8192] S8192x8193 1
  gather_S500000x256_S8192x1_S8192x256_1_0_n_n_0_1_1256_wf : GatherDims.WF S500000x256 S8192x1 S8192x256 [1] [0] [] [0] [] 1 ![1, 256]
  gather_S500000_S8192x1_S8192_n_0_n_n_0_1_1_wf : GatherDims.WF S500000 S8192x1 S8192 [] [0] [] [0] [] 1 ![1]
  dot_S8192x256_S8192x256_S8192x8192_1_1_0_0_n_n_wf : DotDims.WF S8192x256 S8192x256 S8192x8192 [1] [1] [0] [0] [] []

variable [Facts₀]

def gather_S500000x256_S8192x1_S8192x256_1_0_n_n_0_1_1256 : GatherDims S500000x256 S8192x1 S8192x256 where
  offsetDims := [1]
  collapsedSliceDims := [0]
  operandBatchingDims := []
  startIndicesBatchingDims := []
  startIndexMap := [0]
  indexVectorDim := 1
  sliceSizes := ![1, 256]
  wf := gather_S500000x256_S8192x1_S8192x256_1_0_n_n_0_1_1256_wf
def gather_S500000_S8192x1_S8192_n_0_n_n_0_1_1 : GatherDims S500000 S8192x1 S8192 where
  offsetDims := []
  collapsedSliceDims := [0]
  operandBatchingDims := []
  startIndicesBatchingDims := []
  startIndexMap := [0]
  indexVectorDim := 1
  sliceSizes := ![1]
  wf := gather_S500000_S8192x1_S8192_n_0_n_n_0_1_1_wf
def dot_S8192x256_S8192x256_S8192x8192_1_1_0_0_n_n : DotDims S8192x256 S8192x256 S8192x8192 where
  lhsContracting := [1]
  rhsContracting := [1]
  lhsNonContracting := [0]
  rhsNonContracting := [0]
  lhsBatch := []
  rhsBatch := []
  wf := dot_S8192x256_S8192x256_S8192x8192_1_1_0_0_n_n_wf

class Facts : Prop extends Facts₀ where

variable [Facts]
-- ==== Proof.Spec.lean ====
/-
  The logits of a sampled softmax, as ONE function of the seven arrays the computation reads.

  For a batch of 8192 hidden vectors `x[r, ·]` of length 256 the result is an `[8192, 8193]` array. Column 0 holds the
  TRUE logit of row `r`: the inner product of `x[r, ·]` with that row's own weight vector `tw[r, ·]`, plus the row's
  bias `tb[r]`, minus the row's log-frequency `tf[r]`. Column `s + 1` holds the logit of row `r` against SAMPLE `s`:
  the inner product of `x[r, ·]` with the sample's weight vector `sw[s, ·]`, plus the sample's bias `sb[s]`, minus
  the sample's log-frequency `sf[s]`. The biases and log-frequencies of the rows are carried as `[8192, 1]` columns,
  those of the samples as `[1, 8192]` rows.

  Everything is over the extended reals: sums and products are exact, and the order in which the 256 products of an
  inner product are added does not matter.
-/
import Idealize.ShloMosaic.PureOps.Ideal
import Idealize.ShloMosaic.Lib.ValueIdx

noncomputable section

namespace Cert.SampledLogits

open Idealize.ShloMosaic Idealize.ShloMosaic.ValueIdx

/-- 8192 vectors of length 256: the hidden vectors, and either table of gathered weight vectors. -/
abbrev Hidden : Shape := ⟨2, ![8192, 256]⟩
/-- One number per row, as a column. -/
abbrev Col : Shape := ⟨2, ![8192, 1]⟩
/-- One number per sample, as a row. -/
abbrev Lane : Shape := ⟨2, ![1, 8192]⟩
/-- The result: per row, the true logit and then the 8192 sample logits. -/
abbrev Out : Shape := ⟨2, ![8192, 8193]⟩

/-- The true logit of row `r`: `⟨x[r, ·], tw[r, ·]⟩ + tb[r] − tf[r]`. -/
def trueLogit (x tw : Hidden.Idx → EReal) (tb tf : Col.Idx → EReal) (r : Fin 8192) : EReal :=
  ((∑ k : Fin 256, x (ix2 r k) * tw (ix2 r k)) + tb (ix2 r (0 : Fin 1))) - tf (ix2 r (0 : Fin 1))

/-- The logit of row `r` against sample `s`: `⟨x[r, ·], sw[s, ·]⟩ + sb[s] − sf[s]`. -/
def sampleLogit (x sw : Hidden.Idx → EReal) (sb sf : Lane.Idx → EReal) (r s : Fin 8192) : EReal :=
  ((∑ k : Fin 256, x (ix2 r k) * sw (ix2 s k)) + sb (ix2 (0 : Fin 1) s)) - sf (ix2 (0 : Fin 1) s)

/-- The whole result: column 0 the true logits, column `s + 1` the logits against sample `s`. -/
def logits (x tw : Hidden.Idx → EReal) (tb tf : Col.Idx → EReal) (sw : Hidden.Idx → EReal) (sb sf : Lane.Idx → EReal) :
    Out.Idx → EReal := fun i =>
  if (i 1).val = 0 then trueLogit x tw tb tf ⟨(i 0).val, idx2_lt0 i⟩
  else sampleLogit x sw sb sf ⟨(i 0).val, idx2_lt0 i⟩ ⟨(i 1).val - 1, by have := idx2_lt1 i; omega⟩

/-- Column 0 of row `r` is the row's true logit. -/
theorem logits_true (x tw : Hidden.Idx → EReal) (tb tf : Col.Idx → EReal) (sw : Hidden.Idx → EReal) (sb sf : Lane.Idx → EReal)
    (i : Out.Idx) (r : Fin 8192) (h0 : (i 0).val = r.val) (h1 : (i 1).val = 0) :
    logits x tw tb tf sw sb sf i = trueLogit x tw tb tf r := by
  unfold logits
  rw [if_pos h1]
  exact congrArg _ (Fin.ext h0)

/-- Column `s + 1` of row `r` is the row's logit against sample `s`. -/
theorem logits_sample (x tw : Hidden.Idx → EReal) (tb tf : Col.Idx → EReal) (sw : Hidden.Idx → EReal) (sb sf : Lane.Idx → EReal)
    (i : Out.Idx) (r s : Fin 8192) (h0 : (i 0).val = r.val) (h1 : (i 1).val = s.val + 1) :
    logits x tw tb tf sw sb sf i = sampleLogit x sw sb sf r s := by
  unfold logits
  rw [if_neg (by omega)]
  have er : (⟨(i 0).val, idx2_lt0 i⟩ : Fin 8192) = r := Fin.ext h0
  have es : (⟨(i 1).val - 1, by have := idx2_lt1 i; omega⟩ : Fin 8192) = s := Fin.ext (by show (i 1).val - 1 = s.val; omega)
  rw [er, es]

end Cert.SampledLogits

end
-- ==== Proof.LibKeepdims.lean ====
/-
  A reduced axis kept as a unit column, and the column spread back over the rows.

  A reduction over the last axis of an `[a, b]` array with the reduced axis kept (`keepdims`) is carried as an `[a]`
  vector viewed as an `[a, 1]` column and then broadcast to `[a, b]`. Read at explicit coordinates: the column at
  `(i, 0)` is the vector at `i`, and the broadcast at `(i, j)` is the column at `(i, 0)`, whatever `j`.
-/
import Idealize.ShloMosaic.Lib.Pipeline.Value
import Idealize.ShloMosaic.Lib.ValueIdx

namespace Cert.LibKeepdims

open Idealize.ShloMosaic Idealize.ShloMosaic.ValueIdx

variable {α : Type}

/-- An `[a]` vector cast to an `[a, 1]` column reads, at `(i, u)`, the vector at `i`: the two indices have the same
    row-major position. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(i, j)`, the column at `(i, 0)`: the unit axis is read at `0`,
    the other at the same coordinate (when `a = 1` that coordinate is `0` too). -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.LibIdx.lean ====
/-
  Indices of arrays of small rank, written by coordinates: an index whose coordinates are given numbers is the index
  built from them.  Used to identify an index computed by a window's block map, or by a contraction's operand map, with
  the index a specification names.
-/
import Idealize.ShloMosaic.Lib.ValueIdx

namespace Cert.Proof.LibIdx

open Idealize.ShloMosaic Idealize.ShloMosaic.ValueIdx

/-- A rank-1 index with the given coordinate is the index built from it. -/
theorem ix1_ext {n0 : Nat} (x : (⟨1, ![n0]⟩ : Shape).Idx) (a : Fin n0) (h0 : (x 0 : ℕ) = a) : x = ix1 a := by
  have e0 : x 0 = a := Fin.ext h0
  exact (eq_ix1 x).trans (by rw [e0]; rfl)

/-- A rank-2 index with the given coordinates is the index built from them. -/
theorem ix2_ext {n0 n1 : Nat} (x : (⟨2, ![n0, n1]⟩ : Shape).Idx) (a : Fin n0) (b : Fin n1)
    (h0 : (x 0 : ℕ) = a) (h1 : (x 1 : ℕ) = b) : x = ix2 a b := by
  have e0 : x 0 = a := Fin.ext h0
  have e1 : x 1 = b := Fin.ext h1
  exact (eq_ix2 x).trans (by rw [e0, e1]; rfl)

/-- A rank-3 index with the given coordinates is the index built from them. -/
theorem ix3_ext {n0 n1 n2 : Nat} (x : (⟨3, ![n0, n1, n2]⟩ : Shape).Idx) (a : Fin n0) (b : Fin n1) (c : Fin n2)
    (h0 : (x 0 : ℕ) = a) (h1 : (x 1 : ℕ) = b) (h2 : (x 2 : ℕ) = c) : x = ix3 a b c := by
  have e0 : x 0 = a := Fin.ext h0
  have e1 : x 1 = b := Fin.ext h1
  have e2 : x 2 = c := Fin.ext h2
  exact (eq_ix3 x).trans (by rw [e0, e1, e2]; rfl)

end Cert.Proof.LibIdx
-- ==== Proof.Payload.lean ====
/-
  The two values the kernel body stores, read at explicit coordinates, over the extended reals.

  The body holds a block of 128 rows. From the rows' hidden vectors `x0` and their own weight vectors `x1` it forms the
  128 inner products (a sum along each row of the elementwise product), adds the rows' biases `x2` and subtracts their
  log-frequencies `x3`: a `[128, 1]` column. From `x0` and ALL 8192 sample weight vectors `x4` it forms the
  `[128, 8192]` matrix of inner products (a matrix product contracting the length-256 axis of both, accumulated into
  zero), adds the samples' biases `x5` and subtracts their log-frequencies `x6`, each a `[1, 8192]` row repeated down
  the 128 rows.

  Over the extended reals a change of float format is the identity, a lane sum is the plain sum of its 256 terms, and
  a matrix product into a zero accumulator is the plain sum of the 256 products.
-/
import proofs.«140793_j51213190037826_1_alg».proof.Proof.Gen.KernelIdeal.Skeleton
import proofs.«140793_j51213190037826_1_alg».proof.Proof.LibKeepdims
import proofs.«140793_j51213190037826_1_alg».proof.Proof.LibIdx
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx Cert.Proof.LibIdx

/-- The dimension numbers of the body's matrix product: `[128, 256] × [8192, 256] → [128, 8192]`, contracting axis 1
    of both. -/
abbrev DD : DotDims S128x256 S8192x256 S128x8192 := dot_S128x256_S8192x256_S128x8192_1_1_0_0_n_n

/-- Row `p`'s lane sum of an elementwise product is the sum over `k` of the products at `(p, k)`. -/
theorem rowDot_apply (a b : FVec Ideal S128x256 .f32) (p : Fin 128) :
    multiReduction (F := Ideal) .add [1] S128 (mulf a b) 0x00000000#32 reduces_S128x256_S128 (.inl rfl) rfl (ix1 p)
      = ∑ k : Fin 256, a (ix2 p k) * b (ix2 p k) := by
  refine (Ideal.multiReduction_add_single (mulf a b) 0x00000000#32 reduces_S128x256_S128 (.inl rfl) rfl (ix1 p)).trans ?_
  refine Finset.sum_congr rfl fun k _ => ?_
  have e : reduces_S128x256_S128.lift (ix1 p) k = ix2 p k := ix2_ext _ p k rfl rfl
  rw [e]
  rfl

/-- The left operand index of the product at `(p, s)` and contraction position `k` is `(p, k)`. -/
theorem lhs_at (p : Fin 128) (s : Fin 8192) (k : Fin 256) :
    DD.lhsIdx (ix2 p s) ((contrEquiv1 DD 256 rfl rfl).symm k) = ix2 p k := by
  refine ix2_ext _ p k ?_ ((DD.lhsIdx_val_of_single rfl _ _).trans (contrEquiv1_symm_val DD 256 rfl rfl k))
  unfold DotDims.lhsIdx
  rw [dif_neg (show ¬(0 : Fin S128x256.rank) ∈ DD.lhsBatch by decide),
    dif_pos (show (0 : Fin S128x256.rank) ∈ DD.lhsNonContracting by decide)]
  rfl

/-- The right operand index there is `(s, k)`: the sample's weight vector is read along its own length. -/
theorem rhs_at (p : Fin 128) (s : Fin 8192) (k : Fin 256) :
    DD.rhsIdx (ix2 p s) ((contrEquiv1 DD 256 rfl rfl).symm k) = ix2 s k := by
  refine ix2_ext _ s k ?_ ((DD.rhsIdx_val_of_single rfl _ _).trans (contrEquiv1_symm_val DD 256 rfl rfl k))
  unfold DotDims.rhsIdx
  rw [dif_neg (show ¬(0 : Fin S8192x256.rank) ∈ DD.rhsBatch by decide),
    dif_pos (show (0 : Fin S8192x256.rank) ∈ DD.rhsNonContracting by decide)]
  rfl

/-- The matrix product into a zero accumulator, at `(p, s)`: the sum over `k` of row `p` of the left operand times
    row `s` of the right. -/
theorem dot_apply (l : FVec Ideal S128x256 .bf16) (r : FVec Ideal S8192x256 .bf16) (p : Fin 128) (s : Fin 8192) :
    matmul DD none l r (constant (F := Ideal) S128x8192 .f32 0x00000000#32) (ix2 p s)
      = ∑ k : Fin 256, l (ix2 p k) * r (ix2 s k) := by
  simp only [matmul]
  rw [Ideal.matmul_constant_zero_apply, ← Equiv.sum_comp (contrEquiv1 DD 256 rfl rfl).symm]
  refine Finset.sum_congr rfl fun k _ => ?_
  rw [lhs_at, rhs_at]

/-- The column the body stores at `(p, 0)`: row `p`'s inner product with its own weight vector, plus its bias, minus
    its log-frequency. -/
theorem trueColumn_apply (x0 x1 : Vec Ideal S128x256 .f32) (x2 x3 : Vec Ideal S128x1 .f32) (p : Fin 128) (u : Fin 1) :
    k0_pay1 x0 x1 x2 x3 (ix2 p u)
      = ((∑ k : Fin 256, x0 (ix2 p k) * x1 (ix2 p k)) + x2 (ix2 p u)) - x3 (ix2 p u) := by
  unfold k0_pay1
  show (shapeCast S128x1 (multiReduction (F := Ideal) .add [1] S128 (mulf x0 (shapeCast S128x256 x1 shapeCasts_S128x256_S128x256)) 0x00000000#32 reduces_S128x256_S128 (.inl rfl) rfl) shapeCasts_S128_S128x1 (ix2 p u)
      + shapeCast S128x1 x2 shapeCasts_S128x1_S128x1 (ix2 p u)) - shapeCast S128x1 x3 shapeCasts_S128x1_S128x1 (ix2 p u) = _
  rw [shapeCast_self x1, shapeCast_self x2, shapeCast_self x3]
  rw [Cert.LibKeepdims.shapeCast_a_a1_apply, rowDot_apply]

/-- The matrix the body stores at `(p, s)`: row `p`'s inner product with sample `s`'s weight vector, plus the sample's
    bias, minus its log-frequency. -/
theorem sampleMatrix_apply (x0 : Vec Ideal S128x256 .f32) (x4 : Vec Ideal S8192x256 .bf16) (x5 x6 : Vec Ideal S1x8192 .f32)
    (p : Fin 128) (s : Fin 8192) :
    k0_pay2 x0 x4 x5 x6 (ix2 p s)
      = ((∑ k : Fin 256, x0 (ix2 p k) * x4 (ix2 s k)) + x5 (ix2 (0 : Fin 1) s)) - x6 (ix2 (0 : Fin 1) s) := by
  unfold k0_pay2
  show (matmul DD none (truncf (F := Ideal) .bf16 x0 bitsLt_bf16_f32) (shapeCast S8192x256 x4 shapeCasts_S8192x256_S8192x256) (constant (F := Ideal) S128x8192 .f32 0x00000000#32) (ix2 p s)
      + broadcastTo S128x8192 (shapeCast S1x8192 x5 shapeCasts_S1x8192_S1x8192) broadcasts_S1x8192_S128x8192 (ix2 p s))
      - broadcastTo S128x8192 (shapeCast S1x8192 x6 shapeCasts_S1x8192_S1x8192) broadcasts_S1x8192_S128x8192 (ix2 p s) = _
  rw [shapeCast_self x4, shapeCast_self x5, shapeCast_self x6]
  rw [dot_apply, broadcastTo_1b_ab_apply, broadcastTo_1b_ab_apply]
  rfl

end Cert.KernelIdeal.Payload

end
-- ==== Proof.Block.lean ====
/-
  What one grid point leaves in the output's `[128, 8193]` block, as ONE function of the block index.

  The body fills the block with two stores: the `[128, 1]` column of true logits into column 0, and the `[128, 8192]`
  matrix of sample logits into columns 1 to 8192. The two rectangles are disjoint and together are the whole block, so
  the block reads back, at `(p, 0)`, the column's entry `p`, and at `(p, s + 1)`, the matrix's entry `(p, s)` —
  whatever the buffer held before. Every load of the body reads a whole input buffer, so each stored value is a
  function of the input blocks alone.
-/
import proofs.«140793_j51213190037826_1_alg».proof.Proof.Gen.KernelIdeal.Frame
import proofs.«140793_j51213190037826_1_alg».proof.Proof.LibIdx
import Idealize.ShloMosaic.Lib.Pipeline.Value
import Idealize.ShloMosaic.Lib.ValueIdx
import Idealize.ShloMosaic.Lib.Tactic

noncomputable section

namespace Cert.KernelIdeal.Block

open Cert.KernelIdeal Cert.KernelIdeal.Gen
open Idealize.ShloMosaic Idealize.ShloMosaic.TcCoe Idealize.ShloMosaic.Tactic Idealize.ShloMosaic.ValueIdx
open Idealize.SL Idealize.SL.Sem
open Cert.Proof.LibIdx

variable {F : FTy → Type} [FloatOps F]

theorem zeros : (![0, 0] : Fin 2 → Nat) = fun _ => 0 := funext fun a => by fin_cases a <;> rfl

/-- The block as one function: column 0 from the column of true logits, column `s + 1` from column `s` of the
    matrix of sample logits. -/
def blockOf (x0 x1 : Vec F S128x256 .f32) (x2 x3 : Vec F S128x1 .f32) (x4 : Vec F S8192x256 .bf16) (x5 x6 : Vec F S1x8192 .f32) : Vec F S128x8193 .f32 := fun y =>
  if (y 1).val = 0 then k0_pay1 x0 x1 x2 x3 (ix2 (⟨(y 0).val, idx2_lt0 y⟩ : Fin 128) (0 : Fin 1))
  else k0_pay2 x0 x4 x5 x6 (ix2 (⟨(y 0).val, idx2_lt0 y⟩ : Fin 128) (⟨(y 1).val - 1, by have := idx2_lt1 y; omega⟩ : Fin 8192))

/-- Row `p` of the block holds the true logit's value in column 0 … -/
theorem blockOf_col0 (x0 x1 : Vec F S128x256 .f32) (x2 x3 : Vec F S128x1 .f32) (x4 : Vec F S8192x256 .bf16) (x5 x6 : Vec F S1x8192 .f32) (y : S128x8193.Idx) (p : Fin 128) (h0 : (y 0).val = p.val) (h1 : (y 1).val = 0) :
    blockOf x0 x1 x2 x3 x4 x5 x6 y = k0_pay1 x0 x1 x2 x3 (ix2 p (0 : Fin 1)) := by
  unfold blockOf
  rw [if_pos h1]
  exact congrArg (fun q : Fin 128 => k0_pay1 x0 x1 x2 x3 (ix2 q (0 : Fin 1))) (Fin.ext h0)

/-- … and the matrix's entry `(p, s)` in column `s + 1`. -/
theorem blockOf_succ (x0 x1 : Vec F S128x256 .f32) (x2 x3 : Vec F S128x1 .f32) (x4 : Vec F S8192x256 .bf16) (x5 x6 : Vec F S1x8192 .f32) (y : S128x8193.Idx) (p : Fin 128) (s : Fin 8192) (h0 : (y 0).val = p.val)
    (h1 : (y 1).val = s.val + 1) :
    blockOf x0 x1 x2 x3 x4 x5 x6 y = k0_pay2 x0 x4 x5 x6 (ix2 p s) := by
  unfold blockOf
  rw [if_neg (by omega)]
  have ep : (⟨(y 0).val, idx2_lt0 y⟩ : Fin 128) = p := Fin.ext h0
  have es : (⟨(y 1).val - 1, by have := idx2_lt1 y; omega⟩ : Fin 8192) = s := Fin.ext (by show (y 1).val - 1 = s.val; omega)
  rw [ep, es]

/-- The column store's payload is the block's function on the column's rectangle. -/
theorem column_piece (x0 x1 : Vec F S128x256 .f32) (x2 x3 : Vec F S128x1 .f32) (x4 : Vec F S8192x256 .bf16) (x5 x6 : Vec F S1x8192 .f32)
    (x : (Rect.unit (s := S128x8193) ![0, 0] S128x1.size inb_S128x8193_S128x1_0_0).shape.Idx) :
    k0_pay1 x0 x1 x2 x3 x
      = blockOf x0 x1 x2 x3 x4 x5 x6 ((Rect.unit (s := S128x8193) ![0, 0] S128x1.size inb_S128x8193_S128x1_0_0).emb x) := by
  have hx0 : (x 0).val < 128 := (x 0).isLt
  have hx1 : (x 1).val < 1 := (x 1).isLt
  have e0 : (((Rect.unit (s := S128x8193) ![0, 0] S128x1.size inb_S128x8193_S128x1_0_0).emb x) 0).val = (x 0).val := by
    rw [Rect.emb_apply]; show 0 + 1 * (x 0).val = (x 0).val; omega
  have e1 : (((Rect.unit (s := S128x8193) ![0, 0] S128x1.size inb_S128x8193_S128x1_0_0).emb x) 1).val = 0 := by
    rw [Rect.emb_apply]; show 0 + 1 * (x 1).val = 0; omega
  rw [blockOf_col0 x0 x1 x2 x3 x4 x5 x6 _ ⟨(x 0).val, hx0⟩ e0 e1]
  exact congrArg (k0_pay1 x0 x1 x2 x3) (ix2_ext x ⟨(x 0).val, hx0⟩ (0 : Fin 1) rfl (by show (x 1).val = 0; omega))

/-- The matrix store's payload is the block's function on the matrix's rectangle, one column to the right. -/
theorem matrix_piece (x0 x1 : Vec F S128x256 .f32) (x2 x3 : Vec F S128x1 .f32) (x4 : Vec F S8192x256 .bf16) (x5 x6 : Vec F S1x8192 .f32)
    (x : (Rect.unit (s := S128x8193) ![0, 1] S128x8192.size inb_S128x8193_S128x8192_0_1).shape.Idx) :
    k0_pay2 x0 x4 x5 x6 x
      = blockOf x0 x1 x2 x3 x4 x5 x6 ((Rect.unit (s := S128x8193) ![0, 1] S128x8192.size inb_S128x8193_S128x8192_0_1).emb x) := by
  have hx0 : (x 0).val < 128 := (x 0).isLt
  have hx1 : (x 1).val < 8192 := (x 1).isLt
  have e0 : (((Rect.unit (s := S128x8193) ![0, 1] S128x8192.size inb_S128x8193_S128x8192_0_1).emb x) 0).val = (x 0).val := by
    rw [Rect.emb_apply]; show 0 + 1 * (x 0).val = (x 0).val; omega
  have e1 : (((Rect.unit (s := S128x8193) ![0, 1] S128x8192.size inb_S128x8193_S128x8192_0_1).emb x) 1).val = (x 1).val + 1 := by
    rw [Rect.emb_apply]; show 1 + 1 * (x 1).val = (x 1).val + 1; omega
  rw [blockOf_succ x0 x1 x2 x3 x4 x5 x6 _ ⟨(x 0).val, hx0⟩ ⟨(x 1).val, hx1⟩ e0 e1]
  exact congrArg (k0_pay2 x0 x4 x5 x6) (ix2_ext x ⟨(x 0).val, hx0⟩ ⟨(x 1).val, hx1⟩ rfl rfl)

/-- WHAT THE BODY LEAVES: on whole staging buffers holding the input blocks `x0 … x6`, the output's buffer ends at the
    block's function of them — the two stores' rectangles tile the block and each store's payload is that function
    on its rectangle. -/
theorem out_eq (c : Dev nD) (i : grid0.Coords) (arg1 : Memref sig .tc .vmem S128x256 .f32) (harg1 : arg1.IsWhole) (arg2 : Memref sig .tc .vmem S128x256 .f32) (harg2 : arg2.IsWhole) (arg3 : Memref sig .tc .vmem S128x1 .f32) (harg3 : arg3.IsWhole) (arg4 : Memref sig .tc .vmem S128x1 .f32) (harg4 : arg4.IsWhole) (arg5 : Memref sig .tc .vmem S8192x256 .bf16) (harg5 : arg5.IsWhole) (arg6 : Memref sig .tc .vmem S1x8192 .f32) (harg6 : arg6.IsWhole) (arg7 : Memref sig .tc .vmem S1x8192 .f32) (harg7 : arg7.IsWhole) (arg8 : Memref sig .tc .vmem S128x8193 .f32) (harg8 : arg8.IsWhole) (x0 x1 : Vec F S128x256 .f32) (x2 x3 : Vec F S128x1 .f32) (x4 : Vec F S8192x256 .bf16) (x5 x6 : Vec F S1x8192 .f32) :
    out0_A_7 c i arg1 harg1 arg2 harg2 arg3 harg3 arg4 harg4 arg5 harg5 arg6 harg6 arg7 harg7 arg8 harg8 x0 x1 x2 x3 x4 x5 x6 = blockOf x0 x1 x2 x3 x4 x5 x6 := by
  funext y
  unfold out0_A_7
  refine View.read_writes_apply_of_pieces VO0_7 VO0_7.junk (blockOf x0 x1 x2 x3 x4 x5 x6) _ ?_ y
    (cover0_A_7 c i arg1 harg1 arg2 harg2 arg3 harg3 arg4 harg4 arg5 harg5 arg6 harg6 arg7 harg7 arg8 harg8 x0 x1 x2 x3 x4 x5 x6 y)
  unfold kernelRun0_A
  dsimp only
  sl_unfold_words
  intro p hp
  rcases List.mem_cons.mp hp with rfl | hp
  · intro x
    simp only [View.readAt_eq_ld, harg1.read_unread, harg5.read_unread, harg6.read_unread, harg7.read_unread,
      View.ld_unit_zero (S := S128x256) zeros, View.ld_unit_zero (S := S8192x256) zeros, View.ld_unit_zero (S := S1x8192) zeros]
    exact matrix_piece x0 x1 x2 x3 x4 x5 x6 x
  · rcases List.mem_cons.mp hp with rfl | hp
    · intro x
      simp only [View.readAt_eq_ld, harg1.read_unread, harg2.read_unread, harg3.read_unread, harg4.read_unread,
        View.ld_unit_zero (S := S128x256) zeros, View.ld_unit_zero (S := S128x1) zeros]
      exact column_piece x0 x1 x2 x3 x4 x5 x6 x
    · exact absurd hp List.not_mem_nil

end Cert.KernelIdeal.Block

end
-- ==== Proof.Point.lean ====
/-
  One entry of a grid point's block against the specification.

  Grid point `T` (of 64) handles rows `128·T … 128·T + 127`. Its input blocks are the rows' hidden vectors, weight
  vectors, biases and log-frequencies — rows `128·T + p` of the corresponding arrays — and, whole, the three
  per-sample arrays. Entry `(p, j)` of the block it leaves is entry `(128·T + p, j)` of the logits: in column 0 the
  column store's value at `p`, the true logit of that row; in column `s + 1` the matrix store's value at `(p, s)`, the
  row's logit against sample `s`.
-/
import proofs.«140793_j51213190037826_1_alg».proof.Proof.Spec
import proofs.«140793_j51213190037826_1_alg».proof.Proof.Payload
import proofs.«140793_j51213190037826_1_alg».proof.Proof.Block

noncomputable section

namespace Cert.KernelIdeal.Point

open Cert.KernelIdeal Cert.KernelIdeal.Gen Idealize.ShloMosaic Idealize.ShloMosaic.ValueIdx
open Cert.SampledLogits

/-- Entry `y` of point `T`'s block is the logits' entry `i` at row `128·T + y₀` and the same column, when the input
    blocks are the arrays read at those rows (`h0 … h3`) and the per-sample arrays whole (`h4 … h6`). -/
theorem block_entry (A0 A1 : Cert.SampledLogits.Hidden.Idx → EReal) (A2 A3 : Cert.SampledLogits.Col.Idx → EReal) (A4 : Cert.SampledLogits.Hidden.Idx → EReal) (A5 A6 : Cert.SampledLogits.Lane.Idx → EReal)
    (x0 x1 : Vec Ideal S128x256 .f32) (x2 x3 : Vec Ideal S128x1 .f32) (x4 : Vec Ideal S8192x256 .bf16) (x5 x6 : Vec Ideal S1x8192 .f32)
    (T : Nat)
    (h0 : ∀ (p : Fin 128) (k : Fin 256) (r : Fin 8192), r.val = T * 128 + p.val → x0 (ix2 p k) = A0 (ix2 r k))
    (h1 : ∀ (p : Fin 128) (k : Fin 256) (r : Fin 8192), r.val = T * 128 + p.val → x1 (ix2 p k) = A1 (ix2 r k))
    (h2 : ∀ (p : Fin 128) (r : Fin 8192), r.val = T * 128 + p.val → x2 (ix2 p (0 : Fin 1)) = A2 (ix2 r (0 : Fin 1)))
    (h3 : ∀ (p : Fin 128) (r : Fin 8192), r.val = T * 128 + p.val → x3 (ix2 p (0 : Fin 1)) = A3 (ix2 r (0 : Fin 1)))
    (h4 : ∀ (s : Fin 8192) (k : Fin 256), x4 (ix2 s k) = A4 (ix2 s k))
    (h5 : ∀ s : Fin 8192, x5 (ix2 (0 : Fin 1) s) = A5 (ix2 (0 : Fin 1) s))
    (h6 : ∀ s : Fin 8192, x6 (ix2 (0 : Fin 1) s) = A6 (ix2 (0 : Fin 1) s))
    (y : S128x8193.Idx) (i : Out.Idx) (hi0 : (i 0).val = T * 128 + (y 0).val) (hi1 : (i 1).val = (y 1).val) :
    Block.blockOf x0 x1 x2 x3 x4 x5 x6 y = logits A0 A1 A2 A3 A4 A5 A6 i := by
  have hy0 : (y 0).val < 128 := idx2_lt0 y
  have hy1 : (y 1).val < 8193 := idx2_lt1 y
  have hr : (i 0).val < 8192 := idx2_lt0 i
  by_cases hc : (y 1).val = 0
  · rw [Block.blockOf_col0 x0 x1 x2 x3 x4 x5 x6 y ⟨(y 0).val, hy0⟩ rfl hc, Payload.trueColumn_apply,
      logits_true A0 A1 A2 A3 A4 A5 A6 i ⟨(i 0).val, hr⟩ rfl (by omega)]
    unfold trueLogit
    rw [h2 ⟨(y 0).val, hy0⟩ ⟨(i 0).val, hr⟩ hi0, h3 ⟨(y 0).val, hy0⟩ ⟨(i 0).val, hr⟩ hi0]
    refine congrArg (fun z : EReal => z + A2 (ix2 (⟨(i 0).val, hr⟩ : Fin 8192) (0 : Fin 1)) - A3 (ix2 (⟨(i 0).val, hr⟩ : Fin 8192) (0 : Fin 1))) ?_
    exact Finset.sum_congr rfl fun k _ => by
      rw [h0 ⟨(y 0).val, hy0⟩ k ⟨(i 0).val, hr⟩ hi0, h1 ⟨(y 0).val, hy0⟩ k ⟨(i 0).val, hr⟩ hi0]
  · have hs : (y 1).val - 1 < 8192 := by omega
    rw [Block.blockOf_succ x0 x1 x2 x3 x4 x5 x6 y ⟨(y 0).val, hy0⟩ ⟨(y 1).val - 1, hs⟩ rfl (by show (y 1).val = (y 1).val - 1 + 1; omega),
      Payload.sampleMatrix_apply,
      logits_sample A0 A1 A2 A3 A4 A5 A6 i ⟨(i 0).val, hr⟩ ⟨(y 1).val - 1, hs⟩ rfl (by show (i 1).val = (y 1).val - 1 + 1; omega)]
    unfold sampleLogit
    rw [h5 ⟨(y 1).val - 1, hs⟩, h6 ⟨(y 1).val - 1, hs⟩]
    refine congrArg (fun z : EReal => z + A5 (ix2 (0 : Fin 1) (⟨(y 1).val - 1, hs⟩ : Fin 8192)) - A6 (ix2 (0 : Fin 1) (⟨(y 1).val - 1, hs⟩ : Fin 8192))) ?_
    exact Finset.sum_congr rfl fun k _ => by
      rw [h0 ⟨(y 0).val, hy0⟩ k ⟨(i 0).val, hr⟩ hi0, h4 ⟨(y 1).val - 1, hs⟩ k]

end Cert.KernelIdeal.Point

end
-- ==== Proof.Prefix.lean ====
/-
  The arrays the region's windows see, as terms of the program's arguments.

  Before the region the program gathers, for each of the 8192 labels and each of the 8192 sample ids, a row of the
  `[500000, 256]` weight table and an entry of the `[500000]` bias table. An id is first normalised — a negative
  id counts from the end of the table, so 500000 is added to it — and presented as a start index `[8192, 1]`. The
  labels' bias entries and log-frequencies are laid out as `[8192, 1]` columns, the samples' as `[1, 8192]` rows, and
  the samples' weight rows change float format (the identity on extended reals). Nothing else happens before the region,
  so each window's array is one of these terms.
-/
import proofs.«140793_j51213190037826_1_alg».proof.Proof.Gen.KernelIdeal.Frame.Runs
import Idealize.ShloMosaic.Lib.StableHlo.Run

noncomputable section

namespace Cert.KernelIdeal.Prefix

open Cert.KernelIdeal Cert.KernelIdeal.Gen
open Idealize.ShloMosaic Idealize.ShloMosaic.TcCoe Idealize.SL.Sem Idealize.ShloMosaic.StableHlo

variable {F : FTy → Type} [FloatOps F]

/-- The start indices of a gather by ids: a negative id has the table's length 500000 added, and the ids stand as a
    column. -/
def startIdx (ids : (⟨S8192, .i32⟩ : BufTy).Contents (Elt F)) : (⟨S8192x1, .i32⟩ : BufTy).Contents (Elt F) :=
  broadcastInDim S8192x1 ![0] bcast_S8192_S8192x1_0
    (select (cmpi .slt ids (broadcastInDim S8192 ![] bcast_S_S8192 (constantI S_ 32 0#32)))
      (addi ids (broadcastInDim S8192 ![] bcast_S_S8192 (constantI S_ 32 500000#32))) ids)

/-- The weight table's rows at the ids. -/
def weightRows (W : (⟨S500000x256, .f32⟩ : BufTy).Contents (Elt F)) (ids : (⟨S8192, .i32⟩ : BufTy).Contents (Elt F)) :
    (⟨S8192x256, .f32⟩ : BufTy).Contents (Elt F) :=
  Host.gather gather_S500000x256_S8192x1_S8192x256_1_0_n_n_0_1_1256 W (startIdx ids)

/-- The bias table's entries at the ids. -/
def biasEntries (B : (⟨S500000, .f32⟩ : BufTy).Contents (Elt F)) (ids : (⟨S8192, .i32⟩ : BufTy).Contents (Elt F)) :
    (⟨S8192, .f32⟩ : BufTy).Contents (Elt F) :=
  Host.gather gather_S500000_S8192x1_S8192_n_0_n_n_0_1_1 B (startIdx ids)

variable (m : (ℓ : Loc nD τ sig) → Buf (Elt F) ℓ)

/-- Window 1's array: the labels' weight rows. -/
theorem V_labelRows (c : Dev nD) :
    (V m c main_v6 : (⟨S8192x256, .f32⟩ : BufTy).Contents (Elt F))
      = weightRows (m ((c : Thread nD τ).loc main_arg5)) (m ((c : Thread nD τ).loc main_arg1)) := by
  show StableHlo.after hostOps0 (fun b => m (c, b)) (Proc.devRef .tc main_v6) = _
  after_results_simp
  rfl

/-- Window 2's array: the labels' bias entries, as a column. -/
theorem V_labelBias (c : Dev nD) :
    (V m c main_v14 : (⟨S8192x1, .f32⟩ : BufTy).Contents (Elt F))
      = shapeCast S8192x1 (biasEntries (m ((c : Thread nD τ).loc main_arg6)) (m ((c : Thread nD τ).loc main_arg1))) shapeCasts_S8192_S8192x1 := by
  show StableHlo.after hostOps0 (fun b => m (c, b)) (Proc.devRef .tc main_v14) = _
  after_results_simp
  rfl

/-- Window 3's array: the labels' log-frequencies, as a column. -/
theorem V_labelFreq (c : Dev nD) :
    (V m c main_v31 : (⟨S8192x1, .f32⟩ : BufTy).Contents (Elt F))
      = shapeCast S8192x1 (m ((c : Thread nD τ).loc main_arg3)) shapeCasts_S8192_S8192x1 := by
  show StableHlo.after hostOps0 (fun b => m (c, b)) (Proc.devRef .tc main_v31) = _
  after_results_simp
  rfl

/-- Window 4's array: the samples' weight rows, in the narrower float format. -/
theorem V_sampleRows (c : Dev nD) :
    (V m c main_v22 : (⟨S8192x256, .bf16⟩ : BufTy).Contents (Elt F))
      = truncf .bf16 (weightRows (m ((c : Thread nD τ).loc main_arg5)) (m ((c : Thread nD τ).loc main_arg2))) bitsLt_bf16_f32 := by
  show StableHlo.after hostOps0 (fun b => m (c, b)) (Proc.devRef .tc main_v22) = _
  after_results_simp
  rfl

/-- Window 5's array: the samples' bias entries, as a row. -/
theorem V_sampleBias (c : Dev nD) :
    (V m c main_v30 : (⟨S1x8192, .f32⟩ : BufTy).Contents (Elt F))
      = shapeCast S1x8192 (biasEntries (m ((c : Thread nD τ).loc main_arg6)) (m ((c : Thread nD τ).loc main_arg2))) shapeCasts_S8192_S1x8192 := by
  show StableHlo.after hostOps0 (fun b => m (c, b)) (Proc.devRef .tc main_v30) = _
  after_results_simp
  rfl

/-- Window 6's array: the samples' log-frequencies, as a row. -/
theorem V_sampleFreq (c : Dev nD) :
    (V m c main_v32 : (⟨S1x8192, .f32⟩ : BufTy).Contents (Elt F))
      = shapeCast S1x8192 (m ((c : Thread nD τ).loc main_arg4)) shapeCasts_S8192_S1x8192 := by
  show StableHlo.after hostOps0 (fun b => m (c, b)) (Proc.devRef .tc main_v32) = _
  after_results_simp
  rfl

end Cert.KernelIdeal.Prefix

end
-- ==== Proof.KernelValue.lean ====
/-
  The kernel program's results, as functions of its arguments.

  The region runs 64 grid points; point `t` reads rows `128·t … 128·t + 127` of the four per-row arrays and the three
  per-sample arrays whole, and writes back rows `128·t … 128·t + 127` (all 8193 columns) of the result. A block's entry
  `(p, j)` sits in its array at row `128·t + p`, column `j`; so what point `t` writes back is block `t` of the
  logits of the seven arrays as the region finds them, the 64 blocks tile the result, and the result array ends
  holding those logits. The arrays the region finds are the host operations' terms of the arguments. After the region
  the program only builds its second result, 8192 zero words; the arguments are never written.
-/
import proofs.«140793_j51213190037826_1_alg».proof.Proof.Gen.KernelIdeal.Frame
import proofs.«140793_j51213190037826_1_alg».proof.Proof.Spec
import proofs.«140793_j51213190037826_1_alg».proof.Proof.Point
import proofs.«140793_j51213190037826_1_alg».proof.Proof.Prefix
import proofs.«140793_j51213190037826_1_alg».proof.Proof.LibIdx
import Idealize.ShloMosaic.Lib.Pipeline.Value
import Idealize.ShloMosaic.Lib.StableHlo.Run

noncomputable section

namespace Cert.KernelIdeal.LogitsValue

open Cert.KernelIdeal Cert.KernelIdeal.Gen
open Idealize.ShloMosaic Idealize.ShloMosaic.TcCoe Idealize.SL.Sem Idealize.ShloMosaic.ValueIdx
open Idealize.ShloMosaic.Pipeline (Dat)
open Cert.Proof.LibIdx Cert.SampledLogits

variable (m : (ℓ : Loc nD τ sig) → Buf (Elt Ideal) ℓ) (ρ : Dev nD → PrngReg)

/-! ## Where a block sits in its array -/

/-- The block indices at point `t`: the four per-row windows and the result's window are at block row `t`, the three
    per-sample windows never move. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- The hidden vectors' block at point `t`, entry `(p, k)`, is the array's entry at row `128·t + p`. -/
theorem read_hidden (c : Dev nD) (t : Fin cfg0.N) (p : Fin 128) (k : Fin 256) (r : Fin 8192) (hr : r.val = t.val * 128 + p.val) :
    iblk m c 0 t (ix2 p k) = V m c main_arg0 (ix2 r k) := by
  obtain ⟨e0, e1, -⟩ := idx_facts t
  unfold iblk
  rw [View.read_apply]
  show V m c main_arg0 (((cfg0.win 0).blk t).view.emb (ix2 p k)) = V m c main_arg0 (ix2 r k)
  refine congrArg (V m c main_arg0) (ix2_ext _ r k ?_ ?_)
  · show win0_0.index t (0 : Fin 2) * 128 + 1 * p.val = r.val
    rw [e0]; omega
  · show win0_0.index t (1 : Fin 2) * 256 + 1 * k.val = k.val
    rw [e1]; omega

/-- The labels' weight rows likewise. -/
theorem read_labelRows (c : Dev nD) (t : Fin cfg0.N) (p : Fin 128) (k : Fin 256) (r : Fin 8192) (hr : r.val = t.val * 128 + p.val) :
    iblk m c 1 t (ix2 p k) = V m c main_v6 (ix2 r k) := by
  obtain ⟨-, -, e0, e1, -⟩ := idx_facts t
  unfold iblk
  rw [View.read_apply]
  show V m c main_v6 (((cfg0.win 1).blk t).view.emb (ix2 p k)) = V m c main_v6 (ix2 r k)
  refine congrArg (V m c main_v6) (ix2_ext _ r k ?_ ?_)
  · show win0_1.index t (0 : Fin 2) * 128 + 1 * p.val = r.val
    rw [e0]; omega
  · show win0_1.index t (1 : Fin 2) * 256 + 1 * k.val = k.val
    rw [e1]; omega

/-- The labels' bias column: entry `p` of the block is the column's entry at row `128·t + p`. -/
theorem read_labelBias (c : Dev nD) (t : Fin cfg0.N) (p : Fin 128) (r : Fin 8192) (hr : r.val = t.val * 128 + p.val) :
    iblk m c 2 t (ix2 p (0 : Fin 1)) = V m c main_v14 (ix2 r (0 : Fin 1)) := by
  obtain ⟨-, -, -, -, e0, e1, -⟩ := idx_facts t
  unfold iblk
  rw [View.read_apply]
  show V m c main_v14 (((cfg0.win 2).blk t).view.emb (ix2 p (0 : Fin 1))) = V m c main_v14 (ix2 r (0 : Fin 1))
  refine congrArg (V m c main_v14) (ix2_ext _ r (0 : Fin 1) ?_ ?_)
  · show win0_2.index t (0 : Fin 2) * 128 + 1 * p.val = r.val
    rw [e0]; omega
  · show win0_2.index t (1 : Fin 2) * 1 + 1 * 0 = 0
    rw [e1]

/-- The labels' log-frequency column likewise. -/
theorem read_labelFreq (c : Dev nD) (t : Fin cfg0.N) (p : Fin 128) (r : Fin 8192) (hr : r.val = t.val * 128 + p.val) :
    iblk m c 3 t (ix2 p (0 : Fin 1)) = V m c main_v31 (ix2 r (0 : Fin 1)) := by
  obtain ⟨-, -, -, -, -, -, e0, e1, -⟩ := idx_facts t
  unfold iblk
  rw [View.read_apply]
  show V m c main_v31 (((cfg0.win 3).blk t).view.emb (ix2 p (0 : Fin 1))) = V m c main_v31 (ix2 r (0 : Fin 1))
  refine congrArg (V m c main_v31) (ix2_ext _ r (0 : Fin 1) ?_ ?_)
  · show win0_3.index t (0 : Fin 2) * 128 + 1 * p.val = r.val
    rw [e0]; omega
  · show win0_3.index t (1 : Fin 2) * 1 + 1 * 0 = 0
    rw [e1]

/-- The samples' weight rows are staged whole: the block is the array. -/
theorem read_sampleRows (c : Dev nD) (t : Fin cfg0.N) (s : Fin 8192) (k : Fin 256) :
    iblk m c 4 t (ix2 s k) = V m c main_v22 (ix2 s k) := by
  obtain ⟨-, -, -, -, -, -, -, -, e0, e1, -⟩ := idx_facts t
  unfold iblk
  rw [View.read_apply]
  show V m c main_v22 (((cfg0.win 4).blk t).view.emb (ix2 s k)) = V m c main_v22 (ix2 s k)
  refine congrArg (V m c main_v22) (ix2_ext _ s k ?_ ?_)
  · show win0_4.index t (0 : Fin 2) * 8192 + 1 * s.val = s.val
    rw [e0]; omega
  · show win0_4.index t (1 : Fin 2) * 256 + 1 * k.val = k.val
    rw [e1]; omega

/-- The samples' bias row is staged whole. -/
theorem read_sampleBias (c : Dev nD) (t : Fin cfg0.N) (s : Fin 8192) :
    iblk m c 5 t (ix2 (0 : Fin 1) s) = V m c main_v30 (ix2 (0 : Fin 1) s) := by
  obtain ⟨-, -, -, -, -, -, -, -, -, -, e0, e1, -⟩ := idx_facts t
  unfold iblk
  rw [View.read_apply]
  show V m c main_v30 (((cfg0.win 5).blk t).view.emb (ix2 (0 : Fin 1) s)) = V m c main_v30 (ix2 (0 : Fin 1) s)
  refine congrArg (V m c main_v30) (ix2_ext _ (0 : Fin 1) s ?_ ?_)
  · show win0_5.index t (0 : Fin 2) * 1 + 1 * 0 = 0
    rw [e0]
  · show win0_5.index t (1 : Fin 2) * 8192 + 1 * s.val = s.val
    rw [e1]; omega

/-- The samples' log-frequency row is staged whole. -/
theorem read_sampleFreq (c : Dev nD) (t : Fin cfg0.N) (s : Fin 8192) :
    iblk m c 6 t (ix2 (0 : Fin 1) s) = V m c main_v32 (ix2 (0 : Fin 1) s) := by
  obtain ⟨-, -, -, -, -, -, -, -, -, -, -, -, e0, e1, -⟩ := idx_facts t
  unfold iblk
  rw [View.read_apply]
  show V m c main_v32 (((cfg0.win 6).blk t).view.emb (ix2 (0 : Fin 1) s)) = V m c main_v32 (ix2 (0 : Fin 1) s)
  refine congrArg (V m c main_v32) (ix2_ext _ (0 : Fin 1) s ?_ ?_)
  · show win0_6.index t (0 : Fin 2) * 1 + 1 * 0 = 0
    rw [e0]
  · show win0_6.index t (1 : Fin 2) * 8192 + 1 * s.val = s.val
    rw [e1]; omega

/-! ## The result array after the region -/

/-- The logits of the seven arrays as the region finds them. -/
def regionLogits (c : Dev nD) : Buf (Elt Ideal) ((c : Thread nD τ).loc main_v33) :=
  logits (V m c main_arg0) (V m c main_v6) (V m c main_v14) (V m c main_v31) (V m c main_v22) (V m c main_v30) (V m c main_v32)

/-- WHAT POINT `t` WRITES BACK is block `t` of those logits. -/
theorem flushed_eq (c : Dev nD) (t : Fin cfg0.N) :
    (dats m 0 c).flushed 7 t = ((cfg0.win 7).blk t).view.read (Elt Ideal) (regionLogits m c) := by
  obtain ⟨-, -, -, -, -, -, -, -, -, -, -, -, -, -, e0, e1⟩ := idx_facts t
  have hout : outsAt0 m c t
      = Block.blockOf (iblk m c 0 t) (iblk m c 1 t) (iblk m c 2 t) (iblk m c 3 t) (iblk m c 4 t) (iblk m c 5 t) (iblk m c 6 t) :=
    Block.out_eq c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t)
      (iblk m c 0 t) (iblk m c 1 t) (iblk m c 2 t) (iblk m c 3 t) (iblk m c 4 t) (iblk m c 5 t) (iblk m c 6 t)
  show (cfg0.win 7).cut (grid0.coords t) ((dats m 0 c).after 7 t) = _
  rw [after0_7, hout]
  funext y
  rw [View.read_apply]
  show Block.blockOf (iblk m c 0 t) (iblk m c 1 t) (iblk m c 2 t) (iblk m c 3 t) (iblk m c 4 t) (iblk m c 5 t) (iblk m c 6 t) y
    = regionLogits m c (((cfg0.win 7).blk t).view.emb y)
  unfold regionLogits
  refine Point.block_entry (V m c main_arg0) (V m c main_v6) (V m c main_v14) (V m c main_v31) (V m c main_v22) (V m c main_v30) (V m c main_v32)
    (iblk m c 0 t) (iblk m c 1 t) (iblk m c 2 t) (iblk m c 3 t) (iblk m c 4 t) (iblk m c 5 t) (iblk m c 6 t) t.val
    (read_hidden m c t) (read_labelRows m c t) (read_labelBias m c t) (read_labelFreq m c t)
    (read_sampleRows m c t) (read_sampleBias m c t) (read_sampleFreq m c t) y (((cfg0.win 7).blk t).view.emb y) ?_ ?_
  · show win0_7.index t (0 : Fin 2) * 128 + 1 * (y 0).val = t.val * 128 + (y 0).val
    rw [e0]; omega
  · show win0_7.index t (1 : Fin 2) * 8193 + 1 * (y 1).val = (y 1).val
    rw [e1]; omega

/-- An index of the result is in point `t`'s block iff each coordinate is in the block's range on its axis. -/
theorem mem_blk (t : Fin cfg0.N) (i : S8192x8193.Idx) :
    i ∈ ((cfg0.win 7).blk t).view.set
      ↔ ∀ a : Fin 2, win0_7.index t a * S128x8193.size a ≤ (i a).val ∧ (i a).val < win0_7.index t a * S128x8193.size a + S128x8193.size a := by
  show i ∈ ((View.whole main_v33).slice (win0_7.rect t)).set ↔ _
  rw [View.set_slice_whole, Rect.mem_set_unit]
  exact Iff.rfl

/-- Every index of the result is in some point's block: row `r` is in the block of point `r / 128`. -/
theorem cover (i : S8192x8193.Idx) : ∃ t : Fin cfg0.N, (cfg0.win 7).flush t = true ∧ i ∈ ((cfg0.win 7).blk t).view.set := by
  have hi0 : (i 0).val < 8192 := idx2_lt0 i
  have hi1 : (i 1).val < 8193 := idx2_lt1 i
  have hN : cfg0.N = 64 := N_0
  have ht : (i 0).val / 128 < cfg0.N := by rw [hN]; omega
  obtain ⟨-, -, -, -, -, -, -, -, -, -, -, -, -, -, e0, e1⟩ := idx_facts ⟨(i 0).val / 128, ht⟩
  refine ⟨⟨(i 0).val / 128, ht⟩, flush0_7 _, ?_⟩
  rw [mem_blk]
  intro a
  match a with
  | ⟨0, _⟩ =>
    show win0_7.index ⟨(i 0).val / 128, ht⟩ (0 : Fin 2) * 128 ≤ (i 0).val
      ∧ (i 0).val < win0_7.index ⟨(i 0).val / 128, ht⟩ (0 : Fin 2) * 128 + 128
    rw [e0]; dsimp only; omega
  | ⟨1, _⟩ =>
    show win0_7.index ⟨(i 0).val / 128, ht⟩ (1 : Fin 2) * 8193 ≤ (i 1).val
      ∧ (i 1).val < win0_7.index ⟨(i 0).val / 128, ht⟩ (1 : Fin 2) * 8193 + 8193
    rw [e1]; omega

/-- THE RESULT ARRAY after the region: the logits of the arrays as the region finds them. -/
theorem final (c : Dev nD) : (dats m 0 c).arrAt 7 cfg0.N = regionLogits m c :=
  (dats m 0 c).arrAt_eq_of_cover 7 (regionLogits m c) (fun t _ => flushed_eq m c t) (fun i => cover i)

/-! ## In terms of the arguments -/

/-- The logits of: the hidden vectors; the labels' weight rows, bias entries and log-frequencies; the samples' weight
    rows, bias entries and log-frequencies — each as the host operations before the region lay it out. -/
def argLogits (c : Dev nD) : Buf (Elt Ideal) ((c : Thread nD τ).loc main_v33) :=
  logits (m ((c : Thread nD τ).loc main_arg0))
    (Prefix.weightRows (m ((c : Thread nD τ).loc main_arg5)) (m ((c : Thread nD τ).loc main_arg1)))
    (shapeCast S8192x1 (Prefix.biasEntries (m ((c : Thread nD τ).loc main_arg6)) (m ((c : Thread nD τ).loc main_arg1))) shapeCasts_S8192_S8192x1)
    (shapeCast S8192x1 (m ((c : Thread nD τ).loc main_arg3)) shapeCasts_S8192_S8192x1)
    (truncf (F := Ideal) .bf16 (Prefix.weightRows (m ((c : Thread nD τ).loc main_arg5)) (m ((c : Thread nD τ).loc main_arg2))) bitsLt_bf16_f32)
    (shapeCast S1x8192 (Prefix.biasEntries (m ((c : Thread nD τ).loc main_arg6)) (m ((c : Thread nD τ).loc main_arg2))) shapeCasts_S8192_S1x8192)
    (shapeCast S1x8192 (m ((c : Thread nD τ).loc main_arg4)) shapeCasts_S8192_S1x8192)

theorem regionLogits_eq (c : Dev nD) : regionLogits m c = argLogits m c := by
  unfold regionLogits argLogits
  rw [V_main_arg0, Prefix.V_labelRows, Prefix.V_labelBias, Prefix.V_labelFreq, Prefix.V_sampleRows, Prefix.V_sampleBias,
    Prefix.V_sampleFreq]

/-- The second result: the two operations after the region build 8192 zero words. -/
theorem tail_zero (c : Dev nD) :
    Pipeline.afterTail₀ cfgs (dats m) 0 (V0 m) [hostOps1] c main_v34
      = broadcastInDim S8192 ![] bcast_S_S8192 (constantI S_ 32 0#32) := by
  unfold Pipeline.afterTail₀
  show StableHlo.after hostOps1 _ (Proc.devRef .tc main_v34) = _
  after_results <;> rfl

/-! ## The run, read -/

/-- Every weakly fair execution of the kernel program terminates with the first result at the logits of its arguments,
    the second at zeros, and the arguments unchanged. -/
theorem run : θ_run defs (onTc (τ := τ) (main (F := Ideal))) ⟨m, fun _ => 0, ρ⟩ fun r => ∀ c : Dev nD,
      r.2.mem ((c : Thread nD τ).loc main_v33) = argLogits m c
      ∧ r.2.mem ((c : Thread nD τ).loc main_v34) = broadcastInDim S8192 ![] bcast_S_S8192 (constantI S_ 32 0#32)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨((h c).1 7).trans ((final m c).trans (regionLogits_eq m c)),
      ((h c).2 main_v34 (Pipeline.mem_restRefs_of main_v34 (by decide) (by decide))).trans (tail_zero m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.LogitsValue

end
-- ==== Proof.RefValue.lean ====
/-
  The reference's result is the specification's logits.

  The reference gathers the same weight rows and bias entries, forms for each row the sum over the 256 products with its
  own weight vector (a sum that starts from the literal zero), adds the bias and subtracts the log-frequency: a vector of
  8192 true logits, stood up as a column. For the samples it contracts the length-256 axis of the hidden vectors against
  the samples' weight rows, adds the samples' biases and subtracts their log-frequencies, each repeated down the rows.
  The column and the matrix are joined along axis 1: column 0 is the column, column `s + 1` is column `s` of the matrix.

  Against the specification's layout: a vector read as an `[8192, 1]` column at `(r, 0)`, or as a `[1, 8192]` row at
  `(0, s)`, is the vector at `r`, at `s`; a change of float format is the identity; and zero plus a sum is the sum.
-/
import proofs.«140793_j51213190037826_1_alg».proof.Proof.Gen.ReferenceIdeal.Read
import proofs.«140793_j51213190037826_1_alg».proof.Proof.Spec
import proofs.«140793_j51213190037826_1_alg».proof.Proof.LibKeepdims
import proofs.«140793_j51213190037826_1_alg».proof.Proof.LibIdx
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefLogits

open Cert.ReferenceIdeal Cert.ReferenceIdeal.Gen Cert.ReferenceIdeal.Read
open Idealize.ShloMosaic Idealize.ShloMosaic.ValueIdx Cert.Proof.LibIdx Cert.SampledLogits

variable (x0 : (⟨S8192x256, .f32⟩ : BufTy).Contents (Elt Ideal)) (x1 x2 : (⟨S8192, .i32⟩ : BufTy).Contents (Elt Ideal))
  (x3 x4 : (⟨S8192, .f32⟩ : BufTy).Contents (Elt Ideal)) (x5 : (⟨S500000x256, .f32⟩ : BufTy).Contents (Elt Ideal))
  (x6 : (⟨S500000, .f32⟩ : BufTy).Contents (Elt Ideal))

/-- The true logit of row `r` as the reference computes it: zero plus the sum of the 256 products, plus the bias, minus
    the log-frequency. -/
theorem trueVector_apply (r : Fin 8192) :
    val_main_v31 (F := Ideal) x0 x1 x3 x5 x6 (ix1 r)
      = ((∑ k : Fin 256, x0 (ix2 r k) * val_main_v6 (F := Ideal) x1 x5 (ix2 r k)) + val_main_v13 (F := Ideal) x1 x6 (ix1 r)) - x3 (ix1 r) := by
  rw [val_main_v31_apply, val_main_v30_apply, val_main_v29_apply]
  have e : ∀ k : Fin 256, idx_main_v29 (ix1 r) k = ix2 r k := fun k => ix2_ext _ r k rfl rfl
  simp only [e, val_main_v28_apply, val_main_cst_apply, Ideal.addf_def, Ideal.subf_def, Ideal.mulf_def, Ideal.ofBits_def,
    Ideal.ofBits_zero_f32, zero_add]

/-- The logit of row `r` against sample `s` as the reference computes it. -/
theorem sampleMatrix_apply (r s : Fin 8192) :
    val_main_v38 (F := Ideal) x0 x2 x4 x5 x6 (ix2 r s)
      = ((∑ k : Fin 256, x0 (ix2 r k) * val_main_v20 (F := Ideal) x2 x5 (ix2 s k)) + val_main_v27 (F := Ideal) x2 x6 (ix1 s)) - x4 (ix1 s) := by
  rw [val_main_v38_apply, val_main_v35_apply, val_main_v32_apply, val_main_v34_apply, val_main_v33_apply,
    val_main_v37_apply, val_main_v36_apply]
  have el : ∀ k : Fin 256, lidx_main_v32 (ix2 r s) k = ix2 r k := fun k => ix2_ext _ r k rfl rfl
  have er : ∀ k : Fin 256, ridx_main_v32 (ix2 r s) k = ix2 s k := fun k => ix2_ext _ s k rfl rfl
  have e1 : idx_main_v33 (idx_main_v34 (ix2 r s)) = ix1 s := ix1_ext _ s rfl
  have e2 : idx_main_v36 (idx_main_v37 (ix2 r s)) = ix1 s := ix1_ext _ s rfl
  simp only [el, er, e1, e2, Ideal.addf_def, Ideal.subf_def]

/-- THE REFERENCE'S RESULT is the logits of: the hidden vectors; the labels' weight rows; their bias entries and
    log-frequencies as columns; the samples' weight rows (in whichever float format); their bias entries and
    log-frequencies as rows. -/
theorem result_eq_logits (hcol : (⟨1, ![8192]⟩ : Shape).ShapeCasts ⟨2, ![8192, 1]⟩)
    (hrow : (⟨1, ![8192]⟩ : Shape).ShapeCasts ⟨2, ![1, 8192]⟩) (hlt : FTy.bits .bf16 < FTy.bits .f32) :
    val_main_v40 (F := Ideal) x0 x1 x2 x3 x4 x5 x6
      = logits x0 (val_main_v6 (F := Ideal) x1 x5)
          (shapeCast ⟨2, ![8192, 1]⟩ (val_main_v13 (F := Ideal) x1 x6) hcol) (shapeCast ⟨2, ![8192, 1]⟩ x3 hcol)
          (truncf (F := Ideal) .bf16 (val_main_v20 (F := Ideal) x2 x5) hlt)
          (shapeCast ⟨2, ![1, 8192]⟩ (val_main_v27 (F := Ideal) x2 x6) hrow) (shapeCast ⟨2, ![1, 8192]⟩ x4 hrow) := by
  funext i
  have hi0 : (i 0).val < 8192 := idx2_lt0 i
  have hi1 : (i 1).val < 8193 := idx2_lt1 i
  unfold val_main_v40
  by_cases hc : (i 1).val = 0
  · rw [logits_true _ _ _ _ _ _ _ i ⟨(i 0).val, hi0⟩ rfl hc]
    rw [concatenate_pair_apply_left (t := S8192x8193) (s₁ := S8192x1) (s₂ := S8192x8192) (1 : Fin 2)
      (val_main_v39 (F := Ideal) x0 x1 x3 x5 x6) (val_main_v38 (F := Ideal) x0 x2 x4 x5 x6)
      concatenates_S8192x1_S8192x8192_S8192x8193_d1 i rfl
      (ix2 (⟨(i 0).val, hi0⟩ : Fin 8192) (0 : Fin 1)) (fun b => by
        match b with
        | ⟨0, _⟩ => rfl
        | ⟨1, _⟩ => exact hc.symm)]
    rw [val_main_v39_apply]
    have e : idx_main_v39 (ix2 (⟨(i 0).val, hi0⟩ : Fin 8192) (0 : Fin 1)) = ix1 (⟨(i 0).val, hi0⟩ : Fin 8192) := ix1_ext _ _ rfl
    rw [e, trueVector_apply]
    unfold trueLogit
    rw [Cert.LibKeepdims.shapeCast_a_a1_apply, Cert.LibKeepdims.shapeCast_a_a1_apply]
  · have hs : (i 1).val - 1 < 8192 := by omega
    rw [logits_sample _ _ _ _ _ _ _ i ⟨(i 0).val, hi0⟩ ⟨(i 1).val - 1, hs⟩ rfl (by show (i 1).val = (i 1).val - 1 + 1; omega)]
    rw [concatenate_pair_apply_right (t := S8192x8193) (s₁ := S8192x1) (s₂ := S8192x8192) (1 : Fin 2)
      (val_main_v39 (F := Ideal) x0 x1 x3 x5 x6) (val_main_v38 (F := Ideal) x0 x2 x4 x5 x6)
      concatenates_S8192x1_S8192x8192_S8192x8193_d1 i rfl rfl
      (ix2 (⟨(i 0).val, hi0⟩ : Fin 8192) (⟨(i 1).val - 1, hs⟩ : Fin 8192)) (fun b hb => by
        match b with
        | ⟨0, _⟩ => rfl
        | ⟨1, _⟩ => exact absurd rfl hb) (by show (i 1).val - 1 + 1 = (i 1).val; omega)]
    rw [sampleMatrix_apply]
    unfold sampleLogit
    rw [shapeCast_a_1a_apply, shapeCast_a_1a_apply]
    rfl

end Cert.ReferenceIdeal.RefLogits

end
-- ==== Proof.lean ====
/-
  The certificate of the sampled-softmax logits kernel against its reference.

  Both programs gather, by the same normalised ids, the labels' and the samples' rows of the weight table and entries of
  the bias table. The kernel then computes, block of 128 rows by block, the true logit of every row (its inner product
  with its own weight vector, plus bias, minus log-frequency) into column 0 of the result and its logit against every
  sample (inner product with the sample's weight vector, plus the sample's bias, minus its log-frequency) into columns
  1 to 8192; the reference computes the same column and the same matrix whole and joins them. Over the extended reals
  the two results are one function of the arguments: an inner product is the same sum of 256 products whether taken by
  a lane reduction, by a matrix product into a zero accumulator, or by a sum started from a literal zero; a change of
  float format is the identity. The second result of both programs is 8192 zero words. No operation was rewritten to
  read the kernel over the extended reals, so that reading is the kernel's own text.
-/
import proofs.«140793_j51213190037826_1_alg».proof.Defs
import proofs.«140793_j51213190037826_1_alg».proof.Proof.Gen.Kernel
import proofs.«140793_j51213190037826_1_alg».proof.Proof.Gen.Kernel.Skeleton
import proofs.«140793_j51213190037826_1_alg».proof.Proof.Gen.Kernel.Launch
import proofs.«140793_j51213190037826_1_alg».proof.Proof.Gen.Kernel.Points
import proofs.«140793_j51213190037826_1_alg».proof.Proof.Gen.Kernel.Frame
import proofs.«140793_j51213190037826_1_alg».proof.Proof.Gen.KernelIdeal
import proofs.«140793_j51213190037826_1_alg».proof.Proof.Gen.KernelIdeal.Skeleton
import proofs.«140793_j51213190037826_1_alg».proof.Proof.Gen.KernelIdeal.Launch
import proofs.«140793_j51213190037826_1_alg».proof.Proof.Gen.KernelIdeal.Points
import proofs.«140793_j51213190037826_1_alg».proof.Proof.Gen.KernelIdeal.Frame
import proofs.«140793_j51213190037826_1_alg».proof.Proof.Gen.ReferenceIdeal
import proofs.«140793_j51213190037826_1_alg».proof.Proof.Gen.ReferenceIdeal.Run
import proofs.«140793_j51213190037826_1_alg».proof.Proof.Gen.ReferenceIdeal.Read
import proofs.«140793_j51213190037826_1_alg».proof.Proof.Gen.Pre_finite_inputs
import proofs.«140793_j51213190037826_1_alg».proof.Proof.KernelValue
import proofs.«140793_j51213190037826_1_alg».proof.Proof.RefValue
import Idealize.ShloMosaic.Adequacy
import Idealize.ShloMosaic.Init

noncomputable section

namespace Cert.Proof

open Idealize.ShloMosaic Idealize.SL.Sem

/-! ## The two programs gather alike -/

/-- The reference's gather of the labels' weight rows is the kernel program's, … -/
theorem labelRows_agree (W : (⟨Cert.KernelIdeal.S500000x256, .f32⟩ : BufTy).Contents (Elt Ideal)) (ids : (⟨Cert.KernelIdeal.S8192, .i32⟩ : BufTy).Contents (Elt Ideal)) :
    Cert.ReferenceIdeal.Read.val_main_v6 (F := Ideal) ids W = Cert.KernelIdeal.Prefix.weightRows (F := Ideal) W ids := rfl
/-- … and so are its gather of the samples' weight rows … -/
theorem sampleRows_agree (W : (⟨Cert.KernelIdeal.S500000x256, .f32⟩ : BufTy).Contents (Elt Ideal)) (ids : (⟨Cert.KernelIdeal.S8192, .i32⟩ : BufTy).Contents (Elt Ideal)) :
    Cert.ReferenceIdeal.Read.val_main_v20 (F := Ideal) ids W = Cert.KernelIdeal.Prefix.weightRows (F := Ideal) W ids := rfl
/-- … of the labels' bias entries … -/
theorem labelBias_agree (B : (⟨Cert.KernelIdeal.S500000, .f32⟩ : BufTy).Contents (Elt Ideal)) (ids : (⟨Cert.KernelIdeal.S8192, .i32⟩ : BufTy).Contents (Elt Ideal)) :
    Cert.ReferenceIdeal.Read.val_main_v13 (F := Ideal) ids B = Cert.KernelIdeal.Prefix.biasEntries (F := Ideal) B ids := rfl
/-- … and of the samples' bias entries. -/
theorem sampleBias_agree (B : (⟨Cert.KernelIdeal.S500000, .f32⟩ : BufTy).Contents (Elt Ideal)) (ids : (⟨Cert.KernelIdeal.S8192, .i32⟩ : BufTy).Contents (Elt Ideal)) :
    Cert.ReferenceIdeal.Read.val_main_v27 (F := Ideal) ids B = Cert.KernelIdeal.Prefix.biasEntries (F := Ideal) B ids := rfl

/-! ## The claims -/

theorem frame_kernel : Cert.frame_Kernel := fun m ρ _ => Cert.Kernel.Gen.frame m ρ
theorem frame_kernelIdeal : Cert.frame_KernelIdeal := fun m ρ _ => Cert.KernelIdeal.Gen.frame m ρ
/-- The reference has no region: its frame is its run with the results dropped. -/
theorem frame_reference : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Over the extended reals the kernel program's first result ends at the logits of its arguments and the reference's at
    the logits of arguments that agree, the gathers being the same; both second results are zero words. -/
theorem algebraic : Cert.algebraic_KernelIdeal_ReferenceIdeal := by
  intro m ρ m' ρ' _ hagree
  refine ⟨fun c => Cert.KernelIdeal.LogitsValue.argLogits m c,
    fun _ => broadcastInDim Cert.KernelIdeal.S8192 ![] Cert.KernelIdeal.Gen.bcast_S_S8192 (constantI Cert.KernelIdeal.S_ 32 0#32),
    Cert.KernelIdeal.LogitsValue.run m ρ, ?_⟩
  refine (θ_run Cert.ReferenceIdeal.defs _ _).mono (fun _ h c => ?_) (Cert.ReferenceIdeal.Value.run (F := Ideal) m' ρ')
  obtain ⟨h40, h41, hargs⟩ := h c
  obtain ⟨a0, a1, a2, a3, a4, a5, a6⟩ := hagree c
  refine ⟨h40.trans ?_, h41.trans rfl, hargs⟩
  rw [Cert.ReferenceIdeal.Read.val_main_v40_eq,
    Cert.ReferenceIdeal.RefLogits.result_eq_logits _ _ _ _ _ _ _ Cert.KernelIdeal.Gen.shapeCasts_S8192_S8192x1 Cert.KernelIdeal.Gen.shapeCasts_S8192_S1x8192 Cert.KernelIdeal.Gen.bitsLt_bf16_f32,
    a0, a1, a2, a3, a4, a5, a6, labelRows_agree, sampleRows_agree, labelBias_agree, sampleBias_agree]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
